-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x3 : Shape := ⟨2, ![8192, 3]⟩
abbrev S_ : Shape := ⟨0, ![]⟩

class Facts : Prop where
  bcast_S_S8192x3 : S_.BroadcastsInDim S8192x3 (![] : Fin 0 → Fin S8192x3.rank)
  reducesTo_S8192x3_S_d0_1 : S8192x3.ReducesTo [0, 1] S_
  h_S_ : 0 < S_.numel

variable [Facts]

def fn {F : FTy → Type} [FloatOps F] (main_arg0 : FVec F S8192x3 .f32) : IVec S_ 1 :=
  let main_v0 : FVec F S8192x3 .f32 := Host.absf main_arg0
  let main_cst : FVec F S_ .f32 := constant S_ .f32 0x7F800000#32
  let main_v1 : FVec F S8192x3 .f32 := broadcastInDim S8192x3 ![] bcast_S_S8192x3 main_cst
  let main_v2 : IVec S8192x3 1 := cmpf .olt main_v0 main_v1
  let main_c : IVec S_ 1 := constantI S_ 1 1#1
  let main_v3 : IVec S_ 1 := (fun x v => Host.reduce IntOp.andi x v reducesTo_S8192x3_S_d0_1 h_S_) main_v2 main_c
  main_v3
-- ==== Kernel.lean ====
abbrev S8192x3 : Shape := ⟨2, ![8192, 3]⟩
abbrev S8192x1 : Shape := ⟨2, ![8192, 1]⟩
abbrev S8192 : Shape := ⟨1, ![8192]⟩
abbrev S1x8192 : Shape := ⟨2, ![1, 8192]⟩
abbrev S1024x1 : Shape := ⟨2, ![1024, 1]⟩
abbrev S1x1024 : Shape := ⟨2, ![1, 1024]⟩
abbrev S1024x3 : Shape := ⟨2, ![1024, 3]⟩
abbrev S1024x1024 : Shape := ⟨2, ![1024, 1024]⟩
abbrev S1024 : Shape := ⟨1, ![1024]⟩

abbrev nBuf : Space → Nat
  | .hbm => 14
  | .vmem => 15
  | .smem => 0
  | _ => 0

abbrev bufTy : (tb : Table) → Fin (tcTables nBuf tb) → BufTy
  | .hbm, ⟨0, _⟩ => ⟨S8192x3, .f32⟩
  | .hbm, ⟨1, _⟩ => ⟨S8192x1, .f32⟩
  | .hbm, ⟨2, _⟩ => ⟨S8192, .f32⟩
  | .hbm, ⟨3, _⟩ => ⟨S8192x1, .f32⟩
  | .hbm, ⟨4, _⟩ => ⟨S8192, .f32⟩
  | .hbm, ⟨5, _⟩ => ⟨S8192x1, .f32⟩
  | .hbm, ⟨6, _⟩ => ⟨S8192, .f32⟩
  | .hbm, ⟨7, _⟩ => ⟨S8192x1, .f32⟩
  | .hbm, ⟨8, _⟩ => ⟨S8192x1, .f32⟩
  | .hbm, ⟨9, _⟩ => ⟨S8192x1, .f32⟩
  | .hbm, ⟨10, _⟩ => ⟨S1x8192, .f32⟩
  | .hbm, ⟨11, _⟩ => ⟨S1x8192, .f32⟩
  | .hbm, ⟨12, _⟩ => ⟨S1x8192, .f32⟩
  | .hbm, ⟨13, _⟩ => ⟨S8192x3, .f32⟩
  | .local _ .vmem, ⟨0, _⟩ => ⟨S1024x1, .f32⟩
  | .local _ .vmem, ⟨1, _⟩ => ⟨S1024x1, .f32⟩
  | .local _ .vmem, ⟨2, _⟩ => ⟨S1024x1, .f32⟩
  | .local _ .vmem, ⟨3, _⟩ => ⟨S1024x1, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1024x3, .f32⟩
  | .local _ .vmem, ⟨13, _⟩ => ⟨S1024x3, .f32⟩
  | .local _ .vmem, ⟨14, _⟩ => ⟨S1024x3, .f32⟩
  | _, _ => ⟨S8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v51 : BitVec 1 := Scalar.cmpi .eq arg1 c7_i32
  let v52 : BitVec 32 := Scalar.extui v51
  let c0_i32_20 : BitVec 32 := 0#32
  let v53 : BitVec 1 := Scalar.cmpi .ne v52 c0_i32_20
  v53

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x3 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  slices_S8192x3_S8192x1_0_0 : S8192x3.Slices ![0, 0] S8192x1
  shapeCasts_S8192x1_S8192 : S8192x1.ShapeCasts S8192
  slices_S8192x3_S8192x1_0_1 : S8192x3.Slices ![0, 1] S8192x1
  slices_S8192x3_S8192x1_0_2 : S8192x3.Slices ![0, 2] S8192x1
  shapeCasts_S8192_S8192x1 : S8192.ShapeCasts S8192x1
  shapeCasts_S8192_S1x8192 : S8192.ShapeCasts S1x8192
  inb_S1024x3_S1024x3_0_0 : ∀ a, (![0, 0] : Fin 2 → Nat) a + S1024x3.size a ≤ S1024x3.size a
  h_S1024x3 : 0 < S1024x3.numel
  shapeCasts_S1024x3_S1024x3 : S1024x3.ShapeCasts S1024x3
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  concatenates_S1024x1_S1024x1_S1024x1_S1024x3_d1 : Shape.Concatenates [S1024x1, S1024x1, S1024x1] S1024x3 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S8192x1.size a
  hwx0_0 : ∀ i : grid0.Coords, EltTy.bits .f32 = 32 ∨ (Rect.block (s := S8192x1) S1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .f32 = 32 ∨ (Rect.block (s := S8192x1) S1024x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x8192.size a
  hwx0_4 : ∀ i : grid0.Coords, EltTy.bits .f32 = 32 ∨ (Rect.block (s := S1x8192) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x8192.size a
  hwx0_5 : ∀ i : grid0.Coords, EltTy.bits .f32 = 32 ∨ (Rect.block (s := S1x8192) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x3.size a ≤ S8192x3.size a
  hwx0_6 : ∀ i : grid0.Coords, EltTy.bits .f32 = 32 ∨ (Rect.block (s := S8192x3) S1024x3.size (cc0_transform_6 i) (hinb0_6 i)).WholeWords (EltTy.packing .f32)

variable [Facts₀]

abbrev win0_0 : Pipeline.Window sig grid0 :=
  Pipeline.Window.ofSpec (Memref.whole main_v6) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1024x3.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8192x3 : Shape := ⟨2, ![8192, 3]⟩
abbrev S8192x1x3 : Shape := ⟨3, ![8192, 1, 3]⟩
abbrev S1x8192x3 : Shape := ⟨3, ![1, 8192, 3]⟩
abbrev S8192x8192x3 : Shape := ⟨3, ![8192, 8192, 3]⟩
abbrev S_ : Shape := ⟨0, ![]⟩
abbrev S8192x8192 : Shape := ⟨2, ![8192, 8192]⟩
abbrev S8192x8192x1 : Shape := ⟨3, ![8192, 8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x3, .f32⟩
  | .hbm, ⟨1, _⟩ => ⟨S8192x1x3, .f32⟩
  | .hbm, ⟨2, _⟩ => ⟨S1x8192x3, .f32⟩
  | .hbm, ⟨3, _⟩ => ⟨S8192x8192x3, .f32⟩
  | .hbm, ⟨4, _⟩ => ⟨S8192x8192x3, .f32⟩
  | .hbm, ⟨5, _⟩ => ⟨S8192x8192x3, .f32⟩
  | .hbm, ⟨6, _⟩ => ⟨S8192x8192x3, .f32⟩
  | .hbm, ⟨7, _⟩ => ⟨S_, .f32⟩
  | .hbm, ⟨8, _⟩ => ⟨S8192x8192, .f32⟩
  | .hbm, ⟨9, _⟩ => ⟨S8192x8192, .f32⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S8192x8192x1, .f32⟩
  | .hbm, ⟨16, _⟩ => ⟨S8192x8192x3, .f32⟩
  | .hbm, ⟨17, _⟩ => ⟨S8192x8192x3, .f32⟩
  | .hbm, ⟨18, _⟩ => ⟨S_, .f32⟩
  | .hbm, ⟨19, _⟩ => ⟨S8192x3, .f32⟩
  | _, _ => ⟨S8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  bcast_S8192x3_S8192x1x3_0_2 : S8192x3.BroadcastsInDim S8192x1x3 (![0, 2] : Fin 2 → Fin S8192x1x3.rank)
  bcast_S8192x3_S1x8192x3_1_2 : S8192x3.BroadcastsInDim S1x8192x3 (![1, 2] : Fin 2 → Fin S1x8192x3.rank)
  bcast_S8192x1x3_S8192x8192x3_0_1_2 : S8192x1x3.BroadcastsInDim S8192x8192x3 (![0, 1, 2] : Fin 3 → Fin S8192x8192x3.rank)
  bcast_S1x8192x3_S8192x8192x3_0_1_2 : S1x8192x3.BroadcastsInDim S8192x8192x3 (![0, 1, 2] : Fin 3 → Fin S8192x8192x3.rank)
  reducesTo_S8192x8192x3_S8192x8192_d2 : S8192x8192x3.ReducesTo [2] S8192x8192
  h_S_ : 0 < S_.numel
  bcast_S_S8192x8192 : S_.BroadcastsInDim S8192x8192 (![] : Fin 0 → Fin S8192x8192.rank)
  bcast_S8192x8192_S8192x8192x1_0_1 : S8192x8192.BroadcastsInDim S8192x8192x1 (![0, 1] : Fin 2 → Fin S8192x8192x1.rank)
  bcast_S8192x8192x1_S8192x8192x3_0_1_2 : S8192x8192x1.BroadcastsInDim S8192x8192x3 (![0, 1, 2] : Fin 3 → Fin S8192x8192x3.rank)
  reducesTo_S8192x8192x3_S8192x3_d1 : S8192x8192x3.ReducesTo [1] S8192x3

variable [Facts₀]

class Facts : Prop extends Facts₀ where

variable [Facts]
-- ==== Proof.Pieces.lean ====
/-
  What one run of the kernel body leaves behind, as a value.

  The body's last store into the accumulator writes the whole [1024, 3] block; so whatever the accumulator held, after
  the body it holds that store's value: the step (the three row sums laid side by side) added to what the body loaded
  from the accumulator — the zero block the body itself stored just before, at the first step of a row of steps, and
  what the previous step left, at every other step.  At the last step of a row the body then copies the accumulator
  whole into the output block, which therefore holds the same value.
-/
import proofs.«110747_j74440373174855_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- A middle step of a row of steps leaves, in the accumulator holding `xs0`, the step added to `xs0`. -/
theorem sout_B (c : Dev nD) (i : grid0.Coords) (arg2 : Memref sig .tc .vmem S1024x1 .f32) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x3 .f32) (harg8 : arg8.IsWhole) (arg9 : Memref sig .tc .vmem S1024x3 .f32) (harg9 : arg9.IsWhole) (hc0 : ¬cond0_0 i) (hc1 : ¬cond0_1 i)
    (x0 : Vec F S1024x1 .f32) (x1 : Vec F S1024x1 .f32) (x2 : Vec F S1024x1 .f32) (x3 : Vec F S1x1024 .f32) (x4 : Vec F S1x1024 .f32) (x5 : Vec F S1x1024 .f32) (xs0 : Vec F S1024x3 .f32) :
    sout0_B_0 c i arg2 harg2 arg3 harg3 arg4 harg4 arg5 harg5 arg6 harg6 arg7 harg7 arg8 harg8 arg9 harg9 hc0 hc1 x0 x1 x2 x3 x4 x5 xs0 = k0_pay1 (k0_pay5 x2 x5) (k0_pay6 x0 x1 x2 x3 x4 x5) (k0_pay7 x0 x1 x2 x3 x4 x5) (k0_pay8 x0 x1 x2 x3 x4 x5) xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 x5 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, harg9.read_unread, View.ld_unit_zero (S := S1024x1) hz, View.ld_unit_zero (S := S1x1024) hz, View.ld_unit_zero (S := S1024x3) hz]

/-- The last step of a row of steps leaves the same in the accumulator, -/
theorem sout_C (c : Dev nD) (i : grid0.Coords) (arg2 : Memref sig .tc .vmem S1024x1 .f32) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x3 .f32) (harg8 : arg8.IsWhole) (arg9 : Memref sig .tc .vmem S1024x3 .f32) (harg9 : arg9.IsWhole) (hc0 : ¬cond0_0 i) (hc1 : cond0_1 i)
    (x0 : Vec F S1024x1 .f32) (x1 : Vec F S1024x1 .f32) (x2 : Vec F S1024x1 .f32) (x3 : Vec F S1x1024 .f32) (x4 : Vec F S1x1024 .f32) (x5 : Vec F S1x1024 .f32) (xs0 : Vec F S1024x3 .f32) :
    sout0_C_0 c i arg2 harg2 arg3 harg3 arg4 harg4 arg5 harg5 arg6 harg6 arg7 harg7 arg8 harg8 arg9 harg9 hc0 hc1 x0 x1 x2 x3 x4 x5 xs0 = k0_pay1 (k0_pay5 x2 x5) (k0_pay6 x0 x1 x2 x3 x4 x5) (k0_pay7 x0 x1 x2 x3 x4 x5) (k0_pay8 x0 x1 x2 x3 x4 x5) xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg9.read_unread, View.ld_unit_zero (S := S1024x1) hz, View.ld_unit_zero (S := S1x1024) hz, View.ld_unit_zero (S := S1024x3) hz]

/-- and copies it into the output block. -/
theorem out_C (c : Dev nD) (i : grid0.Coords) (arg2 : Memref sig .tc .vmem S1024x1 .f32) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x3 .f32) (harg8 : arg8.IsWhole) (arg9 : Memref sig .tc .vmem S1024x3 .f32) (harg9 : arg9.IsWhole) (hc0 : ¬cond0_0 i) (hc1 : cond0_1 i)
    (x0 : Vec F S1024x1 .f32) (x1 : Vec F S1024x1 .f32) (x2 : Vec F S1024x1 .f32) (x3 : Vec F S1x1024 .f32) (x4 : Vec F S1x1024 .f32) (x5 : Vec F S1x1024 .f32) (xs0 : Vec F S1024x3 .f32) :
    out0_C_6 c i arg2 harg2 arg3 harg3 arg4 harg4 arg5 harg5 arg6 harg6 arg7 harg7 arg8 harg8 arg9 harg9 hc0 hc1 x0 x1 x2 x3 x4 x5 xs0 = k0_pay1 (k0_pay5 x2 x5) (k0_pay6 x0 x1 x2 x3 x4 x5) (k0_pay7 x0 x1 x2 x3 x4 x5) (k0_pay8 x0 x1 x2 x3 x4 x5) xs0 := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hz, View.readCov_unit_zero _ hz]
  simp only [View.readAt_eq_ld, harg2.read_unread, harg3.read_unread, harg4.read_unread, harg5.read_unread, harg6.read_unread, harg7.read_unread, harg9.read_unread, View.ld_unit_zero (S := S1024x1) hz, View.ld_unit_zero (S := S1x1024) hz, View.ld_unit_zero (S := S1024x3) hz]

/-- The first step of a row of steps stores the zero block, loads it back, and leaves the step added to it. -/
theorem sout_A (c : Dev nD) (i : grid0.Coords) (arg2 : Memref sig .tc .vmem S1024x1 .f32) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x3 .f32) (harg8 : arg8.IsWhole) (arg9 : Memref sig .tc .vmem S1024x3 .f32) (harg9 : arg9.IsWhole) (hc0 : cond0_0 i) (hc1 : ¬cond0_1 i)
    (x0 : Vec F S1024x1 .f32) (x1 : Vec F S1024x1 .f32) (x2 : Vec F S1024x1 .f32) (x3 : Vec F S1x1024 .f32) (x4 : Vec F S1x1024 .f32) (x5 : Vec F S1x1024 .f32) :
    sout0_A_0 c i arg2 harg2 arg3 harg3 arg4 harg4 arg5 harg5 arg6 harg6 arg7 harg7 arg8 harg8 arg9 harg9 hc0 hc1 x0 x1 x2 x3 x4 x5 = k0_pay1 (k0_pay5 x2 x5) (k0_pay6 x0 x1 x2 x3 x4 x5) (k0_pay7 x0 x1 x2 x3 x4 x5) (k0_pay8 x0 x1 x2 x3 x4 x5) (k0_pay2 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S1024x3) hz, View.readCov_unit_zero (S := S1024x3) _ hz]
  simp only [View.readAt_eq_ld, harg2.read_unread, harg3.read_unread, harg4.read_unread, harg5.read_unread, harg6.read_unread, harg7.read_unread, harg9.read_unread, View.ld_unit_zero (S := S1024x1) hz, View.ld_unit_zero (S := S1x1024) hz, View.ld_unit_zero (S := S1024x3) hz]

end Cert.KernelIdeal.Pieces

end
-- ==== Proof.PairForce.lean ====
/-
  The all-pairs inverse-cube force, as one function of the position array, over the extended reals.

  For positions x : [8192, 3], the separation of points i and j along axis k is  s(i,j,k) = x(i,k) − x(j,k);
  the softened distance is  d(i,j) = √(s(i,j,0)² + s(i,j,1)² + s(i,j,2)²) + ε,  and the pull of j on i along k is
  s(i,j,k) · (1 / d(i,j)³).  The force on i along k is the sum of the pulls over all 8192 points j.
  Coordinates are natural numbers here (an entry off the array reads 0), so that a sum over all j splits into
  consecutive runs of 1024 by the additivity of sums over ranges.

  The one law used later: d(i,j)³ is never zero when ε > 0 (squares are non-negative, so is the root, and a
  non-negative number plus a positive one is positive), hence multiplying by the reciprocal 1/d³ is dividing by d³.
-/
import Idealize.ShloMosaic.PureOps.Ideal
import Idealize.ShloMosaic.PureOps.Ideal.Laws
import Idealize.ShloMosaic.Lib.ValueIdx

noncomputable section

namespace PairForce

open Idealize.ShloMosaic Idealize.ShloMosaic.ValueIdx

/-- The shape of the position array and of the force array. -/
abbrev Pos : Shape := ⟨2, ![8192, 3]⟩

/-- Entry (i, k) of a [8192, 3] array, read with natural-number coordinates; 0 off the array. -/
def ent (x : Pos.Idx → EReal) (i k : ℕ) : EReal :=
  if h : i < 8192 ∧ k < 3 then x (ix2 (⟨i, h.1⟩ : Fin 8192) (⟨k, h.2⟩ : Fin 3)) else 0

theorem ent_of_lt (x : Pos.Idx → EReal) (i : Fin 8192) (k : Fin 3) : ent x i.val k.val = x (ix2 i k) := by
  unfold ent
  rw [dif_pos ⟨i.isLt, k.isLt⟩]

/-- The separation of points i and j along axis k. -/
def sep (x : Pos.Idx → EReal) (i j k : ℕ) : EReal := ent x i k - ent x j k

/-- The softened length of a vector (a, b, c): the root of the sum of squares, plus ε. -/
def len (ε a b c : EReal) : EReal := Ideal.sqrt (a * a + b * b + c * c) + ε

/-- Its cube, multiplied out from the left. -/
def len3 (ε a b c : EReal) : EReal := len ε a b c * len ε a b c * len ε a b c

/-- The cubed softened distance of points i and j. -/
def cube (ε : EReal) (x : Pos.Idx → EReal) (i j : ℕ) : EReal := len3 ε (sep x i j 0) (sep x i j 1) (sep x i j 2)

/-- The pull of point j on point i along axis k: the separation times the reciprocal of the cubed distance. -/
def pull (ε : EReal) (x : Pos.Idx → EReal) (i j k : ℕ) : EReal := sep x i j k * Ideal.div 1 (cube ε x i j)

/-- The pulls of the first n points on point i along axis k, summed. -/
def pulls (ε : EReal) (x : Pos.Idx → EReal) (i k n : ℕ) : EReal := ∑ j ∈ Finset.range n, pull ε x i j k

/-- The force array: at (i, k) the pulls of all 8192 points on i along k. -/
def force (ε : EReal) (x : Pos.Idx → EReal) : Pos.Idx → EReal := fun idx => pulls ε x (idx 0).val (idx 1).val 8192

theorem pulls_zero (ε : EReal) (x : Pos.Idx → EReal) (i k : ℕ) : pulls ε x i k 0 = 0 := by
  unfold pulls; rw [Finset.range_zero, Finset.sum_empty]

/-- One more run of b points: the sum over the first n + b points is the sum over the first n plus the run's. -/
theorem pulls_add (ε : EReal) (x : Pos.Idx → EReal) (i k n b : ℕ) :
    pulls ε x i k (n + b) = pulls ε x i k n + ∑ l ∈ Finset.range b, pull ε x i (n + l) k := by
  unfold pulls
  exact Finset.sum_range_add _ n b

theorem mul_self_nonneg (a : EReal) : 0 ≤ a * a :=
  EReal.mul_nonneg_iff.2 ((le_total 0 a).imp (fun h => ⟨h, h⟩) (fun h => ⟨h, h⟩))

theorem sqrt_nonneg {s : EReal} (h : 0 ≤ s) : 0 ≤ Ideal.sqrt s := by
  induction s using EReal.rec with
  | bot => exact absurd h (by simp)
  | coe r =>
    have hr : 0 ≤ r := by exact_mod_cast h
    rw [Ideal.sqrt_coe, if_neg (not_lt.2 hr)]
    exact_mod_cast Real.sqrt_nonneg r
  | top => rw [Ideal.sqrt_top]; exact le_top

theorem len_pos {ε : EReal} (hε : 0 < ε) (a b c : EReal) : 0 < len ε a b c := by
  unfold len
  refine lt_of_lt_of_le hε (le_add_of_nonneg_left (sqrt_nonneg ?_))
  exact add_nonneg (add_nonneg (mul_self_nonneg _) (mul_self_nonneg _)) (mul_self_nonneg _)

theorem cube_ne_zero {ε : EReal} (hε : 0 < ε) (x : Pos.Idx → EReal) (i j : ℕ) : cube ε x i j ≠ 0 :=
  (EReal.mul_pos (EReal.mul_pos (len_pos hε _ _ _) (len_pos hε _ _ _)) (len_pos hε _ _ _)).ne'

/-- Multiplying by the reciprocal of a nonzero cube is dividing by it. -/
theorem pull_eq_div {ε : EReal} (hε : 0 < ε) (x : Pos.Idx → EReal) (i j k : ℕ) :
    pull ε x i j k = Ideal.div (sep x i j k) (cube ε x i j) := by
  unfold pull Ideal.div
  rw [if_neg (cube_ne_zero hε x i j), if_neg (cube_ne_zero hε x i j), one_mul]

/-- The softening constant ε both programs spell. -/
def soft : EReal := Ideal.ofBits .f32 0x3727C5AC#32

/-- It is a positive number. -/
theorem soft_pos : (0 : EReal) < soft := by
  unfold soft
  simp [Ideal.ofBits, Ideal.ieee, -EReal.coe_mul]

/-- The numerator of the kernel's reciprocal denotes 1. -/
theorem unit_eq : Ideal.ofBits .f32 0x3F800000#32 = 1 := by
  simp [Ideal.ofBits, Ideal.ieee, -EReal.coe_mul]; norm_num

end PairForce

end
-- ==== Proof.LibColumn.lean ====
/-
  Layout operations of a keepdims row reduction, read at an index given by coordinates: a vector [a] viewed as the
  column [a, 1], and that column broadcast along the second axis to [a, b]. (The library's layout file has the row
  forms [a] → [1, a] and [1, b] → [a, b]; these are the column ones, in the same style.)
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.TileValue.lean ====
/-
  One grid step's arithmetic, read at an index.

  A step holds 1024 points i (a column block of each coordinate: x0, x1, x2 of shape [1024, 1]) and 1024 points j
  (a row block of each coordinate: x3, x4, x5 of shape [1, 1024]).  On the [1024, 1024] tile of pairs it forms the
  separations, the cubed softened distance and its reciprocal, multiplies, sums every row of the tile over its 1024
  lanes, lays the three row sums side by side as a [1024, 3] block and adds that block to the accumulator.
  So the accumulator's entry (r, k) grows by the pulls, along axis k, of the step's 1024 points j on its r-th point i.
-/
import proofs.«110747_j74440373174855_1_alg».proof.Proof.Gen.KernelIdeal.Skeleton
import proofs.«110747_j74440373174855_1_alg».proof.Proof.PairForce
import proofs.«110747_j74440373174855_1_alg».proof.Proof.LibColumn
import Idealize.ShloMosaic.Lib.ValueLayout
import Idealize.ShloMosaic.Lib.Pipeline.Value
import Idealize.ShloMosaic.PureOps.Ideal.Laws

set_option maxRecDepth 16384

noncomputable section

namespace Cert.KernelIdeal.Tile

open Cert.KernelIdeal Cert.KernelIdeal.Gen Idealize.ShloMosaic Idealize.ShloMosaic.ValueIdx PairForce

/-- A lane sum of a [1024, 1024] tile, kept as a column: entry (r, ·) is the sum of row r. -/
theorem rowsum_at (v : FVec Ideal S1024x1024 .f32) (r : Fin 1024) (u : Fin 1) :
    shapeCast S1024x1 (multiReduction .add [1] S1024 v 0x00000000#32 reduces_S1024x1024_S1024 (.inl rfl) rfl)
        shapeCasts_S1024_S1024x1 (ix2 r u)
      = ∑ l : Fin 1024, v (ix2 r l) := by
  refine (shapeCast_a_a1_apply _ shapeCasts_S1024_S1024x1 r u).trans ?_
  refine (Ideal.multiReduction_add_single v _ reduces_S1024x1024_S1024 _ _ (ix1 r)).trans ?_
  refine Finset.sum_congr rfl fun l _ => congrArg v ?_
  funext c
  apply Fin.ext
  match c with
  | ⟨0, _⟩ => rfl
  | ⟨1, _⟩ => rfl

/-- Three columns laid side by side: column 0 of the [1024, 3] block is the first. -/
theorem cat_at0 (a b c : FVec Ideal S1024x1 .f32) (r : Fin 1024) :
    concatenate S1024x3 1 [⟨S1024x1, a⟩, ⟨S1024x1, b⟩, ⟨S1024x1, c⟩] concatenates_S1024x1_S1024x1_S1024x1_S1024x3_d1
        (ix2 r (0 : Fin 3)) = a (ix2 r (0 : Fin 1)) := by
  refine concatenate_apply_piece 1 _ _ (ix2 r (0 : Fin 3)) 0 (by simp) S1024x1 a rfl rfl 0 rfl (ix2 r (0 : Fin 1)) (fun b hb => ?_) rfl
  match b with
  | ⟨0, _⟩ => rfl
  | ⟨1, _⟩ => exact absurd rfl hb

/-- Column 1 is the second. -/
theorem cat_at1 (a b c : FVec Ideal S1024x1 .f32) (r : Fin 1024) :
    concatenate S1024x3 1 [⟨S1024x1, a⟩, ⟨S1024x1, b⟩, ⟨S1024x1, c⟩] concatenates_S1024x1_S1024x1_S1024x1_S1024x3_d1
        (ix2 r (1 : Fin 3)) = b (ix2 r (0 : Fin 1)) := by
  refine concatenate_apply_piece 1 _ _ (ix2 r (1 : Fin 3)) 1 (by simp) S1024x1 b rfl rfl 1 rfl (ix2 r (0 : Fin 1)) (fun b hb => ?_) rfl
  match b with
  | ⟨0, _⟩ => rfl
  | ⟨1, _⟩ => exact absurd rfl hb

/-- Column 2 is the third. -/
theorem cat_at2 (a b c : FVec Ideal S1024x1 .f32) (r : Fin 1024) :
    concatenate S1024x3 1 [⟨S1024x1, a⟩, ⟨S1024x1, b⟩, ⟨S1024x1, c⟩] concatenates_S1024x1_S1024x1_S1024x1_S1024x3_d1
        (ix2 r (2 : Fin 3)) = c (ix2 r (0 : Fin 1)) := by
  refine concatenate_apply_piece 1 _ _ (ix2 r (2 : Fin 3)) 2 (by simp) S1024x1 c rfl rfl 2 rfl (ix2 r (0 : Fin 1)) (fun b hb => ?_) rfl
  match b with
  | ⟨0, _⟩ => rfl
  | ⟨1, _⟩ => exact absurd rfl hb

/-! ## The tile of separations, and of reciprocal cubed distances -/

/-- A column minus a row, spread over the tile: entry (r, l) is the column's r-th minus the row's l-th. -/
theorem k0_pay3_at (x0 : Vec Ideal S1024x1 .f32) (x3 : Vec Ideal S1x1024 .f32) (r l : Fin 1024) :
    k0_pay3 x0 x3 (ix2 r l) = x0 (ix2 r (0 : Fin 1)) - x3 (ix2 (0 : Fin 1) l) := by
  unfold k0_pay3
  rw [shapeCast_self, shapeCast_self]
  exact congrArg₂ (fun p q : EReal => p - q) (broadcastTo_a1_ab_apply _ _ r l) (broadcastTo_1b_ab_apply _ _ r l)

theorem k0_pay4_at (x1 : Vec Ideal S1024x1 .f32) (x4 : Vec Ideal S1x1024 .f32) (r l : Fin 1024) :
    k0_pay4 x1 x4 (ix2 r l) = x1 (ix2 r (0 : Fin 1)) - x4 (ix2 (0 : Fin 1) l) := by
  unfold k0_pay4
  rw [shapeCast_self, shapeCast_self]
  exact congrArg₂ (fun p q : EReal => p - q) (broadcastTo_a1_ab_apply _ _ r l) (broadcastTo_1b_ab_apply _ _ r l)

theorem k0_pay5_at (x2 : Vec Ideal S1024x1 .f32) (x5 : Vec Ideal S1x1024 .f32) (r l : Fin 1024) :
    k0_pay5 x2 x5 (ix2 r l) = x2 (ix2 r (0 : Fin 1)) - x5 (ix2 (0 : Fin 1) l) := by
  unfold k0_pay5
  rw [shapeCast_self, shapeCast_self]
  exact congrArg₂ (fun p q : EReal => p - q) (broadcastTo_a1_ab_apply _ _ r l) (broadcastTo_1b_ab_apply _ _ r l)

/-- The reciprocal tile: entry (r, l) is 1 over the cubed softened length of the three separations there. -/
theorem k0_pay6_at (x0 x1 x2 : Vec Ideal S1024x1 .f32) (x3 x4 x5 : Vec Ideal S1x1024 .f32) (r l : Fin 1024) :
    k0_pay6 x0 x1 x2 x3 x4 x5 (ix2 r l)
      = Ideal.div 1 (len3 soft (k0_pay3 x0 x3 (ix2 r l)) (k0_pay4 x1 x4 (ix2 r l)) (k0_pay5 x2 x5 (ix2 r l))) := by
  rw [← unit_eq]
  rfl

section Step

variable (x : Pos.Idx → EReal) (I J : ℕ)
variable (x0 x1 x2 : Vec Ideal S1024x1 .f32) (x3 x4 x5 : Vec Ideal S1x1024 .f32)
variable (h0 : ∀ r : Fin 1024, x0 (ix2 r (0 : Fin 1)) = ent x (I + r.val) 0)
variable (h1 : ∀ r : Fin 1024, x1 (ix2 r (0 : Fin 1)) = ent x (I + r.val) 1)
variable (h2 : ∀ r : Fin 1024, x2 (ix2 r (0 : Fin 1)) = ent x (I + r.val) 2)
variable (h3 : ∀ l : Fin 1024, x3 (ix2 (0 : Fin 1) l) = ent x (J + l.val) 0)
variable (h4 : ∀ l : Fin 1024, x4 (ix2 (0 : Fin 1) l) = ent x (J + l.val) 1)
variable (h5 : ∀ l : Fin 1024, x5 (ix2 (0 : Fin 1) l) = ent x (J + l.val) 2)

include h0 h3 in
theorem sep0 (r l : Fin 1024) : k0_pay3 x0 x3 (ix2 r l) = sep x (I + r.val) (J + l.val) 0 := by
  rw [k0_pay3_at, h0, h3]; rfl

include h1 h4 in
theorem sep1 (r l : Fin 1024) : k0_pay4 x1 x4 (ix2 r l) = sep x (I + r.val) (J + l.val) 1 := by
  rw [k0_pay4_at, h1, h4]; rfl

include h2 h5 in
theorem sep2 (r l : Fin 1024) : k0_pay5 x2 x5 (ix2 r l) = sep x (I + r.val) (J + l.val) 2 := by
  rw [k0_pay5_at, h2, h5]; rfl

include h0 h1 h2 h3 h4 h5 in
theorem recip (r l : Fin 1024) :
    k0_pay6 x0 x1 x2 x3 x4 x5 (ix2 r l) = Ideal.div 1 (cube soft x (I + r.val) (J + l.val)) := by
  rw [k0_pay6_at, sep0 x I J x0 x3 h0 h3, sep1 x I J x1 x4 h1 h4, sep2 x I J x2 x5 h2 h5]; rfl

include h0 h1 h2 h3 h4 h5 in
/-- ONE STEP: the accumulator's entry (r, k) grows by the pulls of the step's 1024 points j on its r-th point i. -/
theorem step_at (acc : Vec Ideal S1024x3 .f32) (r : Fin 1024) (k : Fin 3) :
    k0_pay1 (k0_pay5 x2 x5) (k0_pay6 x0 x1 x2 x3 x4 x5) (k0_pay7 x0 x1 x2 x3 x4 x5) (k0_pay8 x0 x1 x2 x3 x4 x5) acc (ix2 r k)
      = acc (ix2 r k) + ∑ l ∈ Finset.range 1024, pull soft x (I + r.val) (J + l) k.val := by
  have hr := recip x I J x0 x1 x2 x3 x4 x5 h0 h1 h2 h3 h4 h5 r
  rw [← Fin.sum_univ_eq_sum_range (fun l => pull soft x (I + r.val) (J + l) k.val) 1024]
  unfold k0_pay1
  rw [shapeCast_self]
  refine congrArg (fun q : EReal => acc (ix2 r k) + q) ?_
  match k with
  | ⟨0, _⟩ =>
    refine (cat_at0 _ _ _ r).trans ?_
    unfold k0_pay7
    refine (rowsum_at _ r 0).trans (Finset.sum_congr rfl fun l _ => ?_)
    show k0_pay3 x0 x3 (ix2 r l) * k0_pay6 x0 x1 x2 x3 x4 x5 (ix2 r l) = _
    rw [sep0 x I J x0 x3 h0 h3, hr]; rfl
  | ⟨1, _⟩ =>
    refine (cat_at1 _ _ _ r).trans ?_
    refine (rowsum_at _ r 0).trans (Finset.sum_congr rfl fun l _ => ?_)
    unfold k0_pay8
    show k0_pay4 x1 x4 (ix2 r l) * k0_pay6 x0 x1 x2 x3 x4 x5 (ix2 r l) = _
    rw [sep1 x I J x1 x4 h1 h4, hr]; rfl
  | ⟨2, _⟩ =>
    refine (cat_at2 _ _ _ r).trans ?_
    refine (rowsum_at _ r 0).trans (Finset.sum_congr rfl fun l _ => ?_)
    show k0_pay5 x2 x5 (ix2 r l) * k0_pay6 x0 x1 x2 x3 x4 x5 (ix2 r l) = _
    rw [sep2 x I J x2 x5 h2 h5, hr]; rfl

end Step

/-- The block the first step of a row of steps starts from: every entry 0. -/
theorem k0_pay2_at (i : S1024x3.Idx) : k0_pay2 (F := Ideal) i = 0 := by
  unfold k0_pay2
  rw [shapeCast_self]
  exact Ideal.ofBits_zero_f32

end Cert.KernelIdeal.Tile

end
-- ==== Proof.Blocks.lean ====
/-
  What the kernel's input blocks hold, in terms of the position array.

  Before the grid runs, the host cuts column k (k = 0, 1, 2) out of the [8192, 3] positions and lays it out twice: as a
  column [8192, 1] and as a row [1, 8192].  Entry R of either layout is the position array's entry (R, k).
  The grid is 8 × 8.  At grid point t the column windows (0, 1, 2) hold rows 1024·(t / 8) … 1024·(t / 8) + 1023 of
  their column, and the row windows (3, 4, 5) hold entries 1024·(t mod 8) … 1024·(t mod 8) + 1023 of their row.
-/
import proofs.«110747_j74440373174855_1_alg».proof.Proof.Gen.KernelIdeal.Frame
import proofs.«110747_j74440373174855_1_alg».proof.Proof.PairForce
import proofs.«110747_j74440373174855_1_alg».proof.Proof.LibColumn
import Idealize.ShloMosaic.Lib.ValueLayout
import Idealize.ShloMosaic.Lib.Pipeline.Value
import Idealize.ShloMosaic.Lib.StableHlo.Run
import Idealize.ShloMosaic.Lib.Tactic

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem PairForce
open Idealize.ShloMosaic.StableHlo

variable (m : (ℓ : Loc nD τ sig) → Buf (Elt Ideal) ℓ)

/-- Column o of a [8192, 3] array, flattened and stood up again as [8192, 1]: entry (R, ·) is the array's (R, o). -/
theorem col_at {α : Type} (X : S8192x3.Idx → α) (o : ℕ) (ho : o < 3) (hs : S8192x3.Slices ![0, o] S8192x1) (R : Fin 8192) (u : Fin 1) :
    shapeCast S8192x1 (shapeCast S8192 (extractStridedSlice S8192x1 ![0, o] X hs) shapeCasts_S8192x1_S8192) shapeCasts_S8192_S8192x1 (ix2 R u)
      = X (ix2 R (⟨o, ho⟩ : Fin 3)) := by
  refine (shapeCast_a_a1_apply _ shapeCasts_S8192_S8192x1 R u).trans ?_
  refine (shapeCast_apply _ shapeCasts_S8192x1_S8192 (ix1 R) (ix2 R (0 : Fin 1)) ?_).trans ?_
  · rw [Shape.rowMajor_val_two, Shape.rowMajor_val_one]
    show R.val * 1 + 0 = R.val
    omega
  · refine extractStridedSlice_apply _ X hs _ (ix2 R (⟨o, ho⟩ : Fin 3)) fun a => ?_
    match a with
    | ⟨0, _⟩ => show R.val = 0 + R.val; omega
    | ⟨1, _⟩ => show o = o + 0; rfl

/-- The same column laid down as a row [1, 8192]: entry (·, L) is the array's (L, o). -/
theorem row_at {α : Type} (X : S8192x3.Idx → α) (o : ℕ) (ho : o < 3) (hs : S8192x3.Slices ![0, o] S8192x1) (u : Fin 1) (L : Fin 8192) :
    shapeCast S1x8192 (shapeCast S8192 (extractStridedSlice S8192x1 ![0, o] X hs) shapeCasts_S8192x1_S8192) shapeCasts_S8192_S1x8192 (ix2 u L)
      = X (ix2 L (⟨o, ho⟩ : Fin 3)) := by
  refine (shapeCast_a_1a_apply _ shapeCasts_S8192_S1x8192 u L).trans ?_
  refine (shapeCast_apply _ shapeCasts_S8192x1_S8192 (ix1 L) (ix2 L (0 : Fin 1)) ?_).trans ?_
  · rw [Shape.rowMajor_val_two, Shape.rowMajor_val_one]
    show L.val * 1 + 0 = L.val
    omega
  · refine extractStridedSlice_apply _ X hs _ (ix2 L (⟨o, ho⟩ : Fin 3)) fun a => ?_
    match a with
    | ⟨0, _⟩ => show L.val = 0 + L.val; omega
    | ⟨1, _⟩ => show o = o + 0; rfl

/-! ## Which block each window holds at a grid point -/

theorem idx0 : ∀ t : Fin cfg0.N, win0_0.index t (0 : Fin 2) = t.val / 8 ∧ win0_0.index t (1 : Fin 2) = 0 :=
  (by decide +kernel : ∀ t : Fin grid0.N, _)
theorem idx1 : ∀ t : Fin cfg0.N, win0_1.index t (0 : Fin 2) = t.val / 8 ∧ win0_1.index t (1 : Fin 2) = 0 :=
  (by decide +kernel : ∀ t : Fin grid0.N, _)
theorem idx2 : ∀ t : Fin cfg0.N, win0_2.index t (0 : Fin 2) = t.val / 8 ∧ win0_2.index t (1 : Fin 2) = 0 :=
  (by decide +kernel : ∀ t : Fin grid0.N, _)
theorem idx3 : ∀ t : Fin cfg0.N, win0_3.index t (0 : Fin 2) = 0 ∧ win0_3.index t (1 : Fin 2) = t.val % 8 :=
  (by decide +kernel : ∀ t : Fin grid0.N, _)
theorem idx4 : ∀ t : Fin cfg0.N, win0_4.index t (0 : Fin 2) = 0 ∧ win0_4.index t (1 : Fin 2) = t.val % 8 :=
  (by decide +kernel : ∀ t : Fin grid0.N, _)
theorem idx5 : ∀ t : Fin cfg0.N, win0_5.index t (0 : Fin 2) = 0 ∧ win0_5.index t (1 : Fin 2) = t.val % 8 :=
  (by decide +kernel : ∀ t : Fin grid0.N, _)

theorem v6_eq (c : Dev nD) : (V m c main_v6 : S8192x1.Idx → Ideal .f32)
    = shapeCast S8192x1 (shapeCast S8192 (extractStridedSlice S8192x1 ![0, 0] (m ((c : Thread nD τ).loc main_arg0)) slices_S8192x3_S8192x1_0_0) shapeCasts_S8192x1_S8192) shapeCasts_S8192_S8192x1 := by
  dsimp only [V, hostOps0]
  after_results
  rfl

/-- Window 0's block at a grid point: rows 1024·(t / 8) … of coordinate 0 of the positions. -/
theorem blk0 (c : Dev nD) (t : Fin cfg0.N) (r : Fin 1024) :
    (iblk m c 0 t : Vec Ideal S1024x1 .f32) (ix2 r (0 : Fin 1)) = ent (m ((c : Thread nD τ).loc main_arg0)) (1024 * (t.val / 8) + r.val) 0 := by
  have hN : cfg0.N = 64 := N_0
  have hR : 1024 * (t.val / 8) + r.val < 8192 := by have := t.isLt; have := r.isLt; omega
  have e : (iblk m c 0 t : Vec Ideal S1024x1 .f32) (ix2 r (0 : Fin 1))
      = (V m c main_v6 : S8192x1.Idx → Ideal .f32) (ix2 (⟨1024 * (t.val / 8) + r.val, hR⟩ : Fin 8192) (0 : Fin 1)) := by
    unfold iblk
    rw [View.read_apply]
    show (V m c main_v6 : S8192x1.Idx → Ideal .f32) _ = _
    congr 1
    funext a
    apply Fin.ext
    match a with
    | ⟨0, _⟩ => show win0_0.index t 0 * 1024 + 1 * r.val = 1024 * (t.val / 8) + r.val; rw [(idx0 t).1]; omega
    | ⟨1, _⟩ => show win0_0.index t 1 * 1 + 1 * 0 = 0; rw [(idx0 t).2]
  rw [e, v6_eq, col_at _ 0 (by decide)]
  exact (ent_of_lt _ (⟨1024 * (t.val / 8) + r.val, hR⟩ : Fin 8192) (⟨0, by decide⟩ : Fin 3)).symm

theorem v7_eq (c : Dev nD) : (V m c main_v7 : S8192x1.Idx → Ideal .f32)
    = shapeCast S8192x1 (shapeCast S8192 (extractStridedSlice S8192x1 ![0, 1] (m ((c : Thread nD τ).loc main_arg0)) slices_S8192x3_S8192x1_0_1) shapeCasts_S8192x1_S8192) shapeCasts_S8192_S8192x1 := by
  dsimp only [V, hostOps0]
  after_results
  rfl

/-- Window 1's block at a grid point: rows 1024·(t / 8) … of coordinate 1 of the positions. -/
theorem blk1 (c : Dev nD) (t : Fin cfg0.N) (r : Fin 1024) :
    (iblk m c 1 t : Vec Ideal S1024x1 .f32) (ix2 r (0 : Fin 1)) = ent (m ((c : Thread nD τ).loc main_arg0)) (1024 * (t.val / 8) + r.val) 1 := by
  have hN : cfg0.N = 64 := N_0
  have hR : 1024 * (t.val / 8) + r.val < 8192 := by have := t.isLt; have := r.isLt; omega
  have e : (iblk m c 1 t : Vec Ideal S1024x1 .f32) (ix2 r (0 : Fin 1))
      = (V m c main_v7 : S8192x1.Idx → Ideal .f32) (ix2 (⟨1024 * (t.val / 8) + r.val, hR⟩ : Fin 8192) (0 : Fin 1)) := by
    unfold iblk
    rw [View.read_apply]
    show (V m c main_v7 : S8192x1.Idx → Ideal .f32) _ = _
    congr 1
    funext a
    apply Fin.ext
    match a with
    | ⟨0, _⟩ => show win0_1.index t 0 * 1024 + 1 * r.val = 1024 * (t.val / 8) + r.val; rw [(idx1 t).1]; omega
    | ⟨1, _⟩ => show win0_1.index t 1 * 1 + 1 * 0 = 0; rw [(idx1 t).2]
  rw [e, v7_eq, col_at _ 1 (by decide)]
  exact (ent_of_lt _ (⟨1024 * (t.val / 8) + r.val, hR⟩ : Fin 8192) (⟨1, by decide⟩ : Fin 3)).symm

theorem v8_eq (c : Dev nD) : (V m c main_v8 : S8192x1.Idx → Ideal .f32)
    = shapeCast S8192x1 (shapeCast S8192 (extractStridedSlice S8192x1 ![0, 2] (m ((c : Thread nD τ).loc main_arg0)) slices_S8192x3_S8192x1_0_2) shapeCasts_S8192x1_S8192) shapeCasts_S8192_S8192x1 := by
  dsimp only [V, hostOps0]
  after_results
  rfl

/-- Window 2's block at a grid point: rows 1024·(t / 8) … of coordinate 2 of the positions. -/
theorem blk2 (c : Dev nD) (t : Fin cfg0.N) (r : Fin 1024) :
    (iblk m c 2 t : Vec Ideal S1024x1 .f32) (ix2 r (0 : Fin 1)) = ent (m ((c : Thread nD τ).loc main_arg0)) (1024 * (t.val / 8) + r.val) 2 := by
  have hN : cfg0.N = 64 := N_0
  have hR : 1024 * (t.val / 8) + r.val < 8192 := by have := t.isLt; have := r.isLt; omega
  have e : (iblk m c 2 t : Vec Ideal S1024x1 .f32) (ix2 r (0 : Fin 1))
      = (V m c main_v8 : S8192x1.Idx → Ideal .f32) (ix2 (⟨1024 * (t.val / 8) + r.val, hR⟩ : Fin 8192) (0 : Fin 1)) := by
    unfold iblk
    rw [View.read_apply]
    show (V m c main_v8 : S8192x1.Idx → Ideal .f32) _ = _
    congr 1
    funext a
    apply Fin.ext
    match a with
    | ⟨0, _⟩ => show win0_2.index t 0 * 1024 + 1 * r.val = 1024 * (t.val / 8) + r.val; rw [(idx2 t).1]; omega
    | ⟨1, _⟩ => show win0_2.index t 1 * 1 + 1 * 0 = 0; rw [(idx2 t).2]
  rw [e, v8_eq, col_at _ 2 (by decide)]
  exact (ent_of_lt _ (⟨1024 * (t.val / 8) + r.val, hR⟩ : Fin 8192) (⟨2, by decide⟩ : Fin 3)).symm

theorem v9_eq (c : Dev nD) : (V m c main_v9 : S1x8192.Idx → Ideal .f32)
    = shapeCast S1x8192 (shapeCast S8192 (extractStridedSlice S8192x1 ![0, 0] (m ((c : Thread nD τ).loc main_arg0)) slices_S8192x3_S8192x1_0_0) shapeCasts_S8192x1_S8192) shapeCasts_S8192_S1x8192 := by
  dsimp only [V, hostOps0]
  after_results
  rfl

/-- Window 3's block at a grid point: rows 1024·(t mod 8) … of coordinate 0 of the positions, laid as a row. -/
theorem blk3 (c : Dev nD) (t : Fin cfg0.N) (l : Fin 1024) :
    (iblk m c 3 t : Vec Ideal S1x1024 .f32) (ix2 (0 : Fin 1) l) = ent (m ((c : Thread nD τ).loc main_arg0)) (1024 * (t.val % 8) + l.val) 0 := by
  have hN : cfg0.N = 64 := N_0
  have hR : 1024 * (t.val % 8) + l.val < 8192 := by have := t.isLt; have := l.isLt; omega
  have e : (iblk m c 3 t : Vec Ideal S1x1024 .f32) (ix2 (0 : Fin 1) l)
      = (V m c main_v9 : S1x8192.Idx → Ideal .f32) (ix2 (0 : Fin 1) (⟨1024 * (t.val % 8) + l.val, hR⟩ : Fin 8192)) := by
    unfold iblk
    rw [View.read_apply]
    show (V m c main_v9 : S1x8192.Idx → Ideal .f32) _ = _
    congr 1
    funext a
    apply Fin.ext
    match a with
    | ⟨0, _⟩ => show win0_3.index t 0 * 1 + 1 * 0 = 0; rw [(idx3 t).1]
    | ⟨1, _⟩ => show win0_3.index t 1 * 1024 + 1 * l.val = 1024 * (t.val % 8) + l.val; rw [(idx3 t).2]; omega
  rw [e, v9_eq, row_at _ 0 (by decide)]
  exact (ent_of_lt _ (⟨1024 * (t.val % 8) + l.val, hR⟩ : Fin 8192) (⟨0, by decide⟩ : Fin 3)).symm

theorem v10_eq (c : Dev nD) : (V m c main_v10 : S1x8192.Idx → Ideal .f32)
    = shapeCast S1x8192 (shapeCast S8192 (extractStridedSlice S8192x1 ![0, 1] (m ((c : Thread nD τ).loc main_arg0)) slices_S8192x3_S8192x1_0_1) shapeCasts_S8192x1_S8192) shapeCasts_S8192_S1x8192 := by
  dsimp only [V, hostOps0]
  after_results
  rfl

/-- Window 4's block at a grid point: rows 1024·(t mod 8) … of coordinate 1 of the positions, laid as a row. -/
theorem blk4 (c : Dev nD) (t : Fin cfg0.N) (l : Fin 1024) :
    (iblk m c 4 t : Vec Ideal S1x1024 .f32) (ix2 (0 : Fin 1) l) = ent (m ((c : Thread nD τ).loc main_arg0)) (1024 * (t.val % 8) + l.val) 1 := by
  have hN : cfg0.N = 64 := N_0
  have hR : 1024 * (t.val % 8) + l.val < 8192 := by have := t.isLt; have := l.isLt; omega
  have e : (iblk m c 4 t : Vec Ideal S1x1024 .f32) (ix2 (0 : Fin 1) l)
      = (V m c main_v10 : S1x8192.Idx → Ideal .f32) (ix2 (0 : Fin 1) (⟨1024 * (t.val % 8) + l.val, hR⟩ : Fin 8192)) := by
    unfold iblk
    rw [View.read_apply]
    show (V m c main_v10 : S1x8192.Idx → Ideal .f32) _ = _
    congr 1
    funext a
    apply Fin.ext
    match a with
    | ⟨0, _⟩ => show win0_4.index t 0 * 1 + 1 * 0 = 0; rw [(idx4 t).1]
    | ⟨1, _⟩ => show win0_4.index t 1 * 1024 + 1 * l.val = 1024 * (t.val % 8) + l.val; rw [(idx4 t).2]; omega
  rw [e, v10_eq, row_at _ 1 (by decide)]
  exact (ent_of_lt _ (⟨1024 * (t.val % 8) + l.val, hR⟩ : Fin 8192) (⟨1, by decide⟩ : Fin 3)).symm

theorem v11_eq (c : Dev nD) : (V m c main_v11 : S1x8192.Idx → Ideal .f32)
    = shapeCast S1x8192 (shapeCast S8192 (extractStridedSlice S8192x1 ![0, 2] (m ((c : Thread nD τ).loc main_arg0)) slices_S8192x3_S8192x1_0_2) shapeCasts_S8192x1_S8192) shapeCasts_S8192_S1x8192 := by
  dsimp only [V, hostOps0]
  after_results
  rfl

/-- Window 5's block at a grid point: rows 1024·(t mod 8) … of coordinate 2 of the positions, laid as a row. -/
theorem blk5 (c : Dev nD) (t : Fin cfg0.N) (l : Fin 1024) :
    (iblk m c 5 t : Vec Ideal S1x1024 .f32) (ix2 (0 : Fin 1) l) = ent (m ((c : Thread nD τ).loc main_arg0)) (1024 * (t.val % 8) + l.val) 2 := by
  have hN : cfg0.N = 64 := N_0
  have hR : 1024 * (t.val % 8) + l.val < 8192 := by have := t.isLt; have := l.isLt; omega
  have e : (iblk m c 5 t : Vec Ideal S1x1024 .f32) (ix2 (0 : Fin 1) l)
      = (V m c main_v11 : S1x8192.Idx → Ideal .f32) (ix2 (0 : Fin 1) (⟨1024 * (t.val % 8) + l.val, hR⟩ : Fin 8192)) := by
    unfold iblk
    rw [View.read_apply]
    show (V m c main_v11 : S1x8192.Idx → Ideal .f32) _ = _
    congr 1
    funext a
    apply Fin.ext
    match a with
    | ⟨0, _⟩ => show win0_5.index t 0 * 1 + 1 * 0 = 0; rw [(idx5 t).1]
    | ⟨1, _⟩ => show win0_5.index t 1 * 1024 + 1 * l.val = 1024 * (t.val % 8) + l.val; rw [(idx5 t).2]; omega
  rw [e, v11_eq, row_at _ 2 (by decide)]
  exact (ent_of_lt _ (⟨1024 * (t.val % 8) + l.val, hR⟩ : Fin 8192) (⟨2, by decide⟩ : Fin 3)).symm

end Cert.KernelIdeal.Blocks

end
-- ==== Proof.Accumulate.lean ====
/-
  The accumulator after every grid point, and the output block after the last point of a row of steps.

  The grid point t = 8·a + b handles the 1024 points i of block a against the 1024 points j of block b; the points
  of one block a come in the order b = 0, 1, …, 7.  At b = 0 the accumulator restarts from the zero block.  So after
  point t the accumulator's entry (r, k) is the sum of the pulls, along axis k, of the first 1024·(b + 1) points j on
  point i = 1024·a + r — by induction on the grid point, one run of 1024 more points j per step — and at b = 7, where
  the body also copies the accumulator into the output block, that is the sum over all 8192 points.
-/
import proofs.«110747_j74440373174855_1_alg».proof.Proof.Pieces
import proofs.«110747_j74440373174855_1_alg».proof.Proof.TileValue
import proofs.«110747_j74440373174855_1_alg».proof.Proof.Blocks

set_option maxRecDepth 16384

noncomputable section

namespace Cert.KernelIdeal.Acc

open Cert.KernelIdeal Cert.KernelIdeal.Gen Idealize.ShloMosaic Idealize.ShloMosaic.TcCoe Idealize.ShloMosaic.ValueIdx Idealize.SL.Sem PairForce

variable (m : (ℓ : Loc nD τ sig) → Buf (Elt Ideal) ℓ)

/-- The position array as launched, on core c. -/
abbrev X (c : Dev nD) : Pos.Idx → EReal := m ((c : Thread nD τ).loc main_arg0)

/-- One step at grid point t, on an accumulator that holds the pulls of the first 1024·(t mod 8) points j. -/
theorem grow (c : Dev nD) (t : Fin cfg0.N) (acc : Vec Ideal S1024x3 .f32) (r : Fin 1024) (k : Fin 3)
    (hacc : acc (ix2 r k) = pulls soft (X m c) (1024 * (t.val / 8) + r.val) k.val (1024 * (t.val % 8))) :
    k0_pay1 (k0_pay5 (iblk m c 2 t) (iblk m c 5 t)) (k0_pay6 (iblk m c 0 t) (iblk m c 1 t) (iblk m c 2 t) (iblk m c 3 t) (iblk m c 4 t) (iblk m c 5 t)) (k0_pay7 (iblk m c 0 t) (iblk m c 1 t) (iblk m c 2 t) (iblk m c 3 t) (iblk m c 4 t) (iblk m c 5 t)) (k0_pay8 (iblk m c 0 t) (iblk m c 1 t) (iblk m c 2 t) (iblk m c 3 t) (iblk m c 4 t) (iblk m c 5 t)) acc (ix2 r k)
      = pulls soft (X m c) (1024 * (t.val / 8) + r.val) k.val (1024 * (t.val % 8) + 1024) :=
  (Tile.step_at (X m c) (1024 * (t.val / 8)) (1024 * (t.val % 8)) (iblk m c 0 t) (iblk m c 1 t) (iblk m c 2 t) (iblk m c 3 t) (iblk m c 4 t) (iblk m c 5 t)
    (Blocks.blk0 m c t) (Blocks.blk1 m c t) (Blocks.blk2 m c t) (Blocks.blk3 m c t) (Blocks.blk4 m c t) (Blocks.blk5 m c t) acc r k).trans
    (by rw [hacc]; exact (pulls_add _ _ _ _ _ _).symm)

/-- The accumulator after point t, given what it held after the point before (when t does not restart it). -/
theorem acc_step (c : Dev nD) (t : Fin cfg0.N)
    (ih : ¬t.val % 8 = 0 → ∀ (r : Fin 1024) (k : Fin 3), (outsAt0 m c (t.val - 1) (Nat.lt_of_le_of_lt (Nat.sub_le _ _) t.isLt)).2 (ix2 r k)
        = pulls soft (X m c) (1024 * (t.val / 8) + r.val) k.val (1024 * (t.val % 8)))
    (r : Fin 1024) (k : Fin 3) :
    (outsAt0 m c t.val t.isLt).2 (ix2 r k)
      = pulls soft (X m c) (1024 * (t.val / 8) + r.val) k.val (1024 * (t.val % 8) + 1024) := by
  by_cases h0 : t.val % 8 = 0
  · have h1 : ¬t.val % 8 = 7 := by omega
    rw [outsAt0_A m c t h0 h1]
    dsimp only
    refine (congrFun (Pieces.sout_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)) (ix2 r k)).trans ?_
    refine grow m c t _ r k ?_
    rw [Tile.k0_pay2_at, h0, Nat.mul_zero]
    exact (pulls_zero _ _ _ _).symm
  · by_cases h1 : t.val % 8 = 7
    · rw [outsAt0_C m c t h0 h1]
      dsimp only
      refine (congrFun (Pieces.sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2) (ix2 r k)).trans ?_
      exact grow m c t _ r k (ih h0 r k)
    · rw [outsAt0_B m c t h0 h1]
      dsimp only
      refine (congrFun (Pieces.sout_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2) (ix2 r k)).trans ?_
      exact grow m c t _ r k (ih h0 r k)

/-- THE ACCUMULATOR after grid point n: the pulls of the first 1024·(n mod 8 + 1) points j. -/
theorem acc_at (c : Dev nD) : ∀ (n : ℕ) (h : n < cfg0.N) (r : Fin 1024) (k : Fin 3),
    (outsAt0 m c n h).2 (ix2 r k) = pulls soft (X m c) (1024 * (n / 8) + r.val) k.val (1024 * (n % 8) + 1024)
  | 0, h, r, k => acc_step m c ⟨0, h⟩ (fun hh => absurd rfl hh) r k
  | n + 1, h, r, k => acc_step m c ⟨n + 1, h⟩ (fun hh r k => by
      have hh' : ¬(n + 1) % 8 = 0 := hh
      have e1 : 1024 * (n / 8) = 1024 * ((n + 1) / 8) := by omega
      have e2 : 1024 * (n % 8) + 1024 = 1024 * ((n + 1) % 8) := by omega
      show (outsAt0 m c n _).2 (ix2 r k) = pulls soft (X m c) (1024 * ((n + 1) / 8) + r.val) k.val (1024 * ((n + 1) % 8))
      rw [acc_at c n (Nat.lt_of_succ_lt h) r k, e1, e2]) r k

/-- THE OUTPUT BLOCK after the last point of a row of steps: the pulls of all 8192 points j. -/
theorem out_at (c : Dev nD) (t : Fin cfg0.N) (h1 : t.val % 8 = 7) (y : S1024x3.Idx) :
    (outsAt0 m c t.val t.isLt).1 y = pulls soft (X m c) (1024 * (t.val / 8) + (y 0).val) (y 1).val 8192 := by
  have hN : t.val < 64 := lt_of_lt_of_eq t.isLt (show cfg0.N = 64 from N_0)
  have h0 : ¬t.val % 8 = 0 := by omega
  obtain ⟨r, k, rfl⟩ : ∃ (r : Fin 1024) (k : Fin 3), y = ix2 r k := ⟨y 0, y 1, eq_ix2 y⟩
  rw [outsAt0_C m c t h0 h1]
  dsimp only
  refine (congrFun (Pieces.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2) (ix2 r k)).trans ?_
  have e : 1024 * (t.val % 8) + 1024 = 8192 := by omega
  rw [← e]
  refine grow m c t _ r k ?_
  have hp : t.val - 1 < cfg0.N := Nat.lt_of_le_of_lt (Nat.sub_le _ _) t.isLt
  have e1 : 1024 * ((t.val - 1) / 8) = 1024 * (t.val / 8) := by omega
  have e2 : 1024 * ((t.val - 1) % 8) + 1024 = 1024 * (t.val % 8) := by omega
  rw [acc_at m c (t.val - 1) hp r k, e1, e2]

end Cert.KernelIdeal.Acc

end
-- ==== Proof.Result.lean ====
/-
  The kernel's result array after the whole grid has run.

  The output window's block moves with the first grid coordinate only, and is written back at the last point of each
  row of steps (t mod 8 = 7): block t / 8, rows 1024·(t / 8) … of the [8192, 3] result.  What is written back there is
  the output block after that point, whose entry (r, k) is the force on point 1024·(t / 8) + r along k.  Every row R of
  the result lies in the block written back at t = 8·(R / 1024) + 7, so the result array is the force array.
-/
import proofs.«110747_j74440373174855_1_alg».proof.Proof.Accumulate
import proofs.«110747_j74440373174855_1_alg».proof.Proof.Gen.KernelIdeal.Value

set_option maxRecDepth 16384

noncomputable section

namespace Cert.KernelIdeal.Result

open Cert.KernelIdeal Cert.KernelIdeal.Gen Idealize.ShloMosaic Idealize.ShloMosaic.TcCoe Idealize.ShloMosaic.ValueIdx Idealize.SL.Sem PairForce
open Idealize.ShloMosaic.Pipeline (Dat)
open Cert.KernelIdeal.Acc (X)

variable (m : (ℓ : Loc nD τ sig) → Buf (Elt Ideal) ℓ) (ρ : Dev nD → PrngReg)

/-- The output window's block index at a grid point. -/
theorem idx6 : ∀ t : Fin cfg0.N, win0_6.index t (0 : Fin 2) = t.val / 8 ∧ win0_6.index t (1 : Fin 2) = 0 :=
  (by decide +kernel : ∀ t : Fin grid0.N, _)

/-- What a writing-back point writes back is its block of the force array. -/
theorem flushed_eq (c : Dev nD) (t : Fin cfg0.N) (hf : (cfg0.win 6).flush t = true) :
    (dats m 0 c).flushed 6 t = ((cfg0.win 6).blk t).view.read (Elt Ideal) (force soft (X m c)) := by
  have h1 : t.val % 8 = 7 := (flush0_6 t).mp hf
  have hN : t.val < 64 := lt_of_lt_of_eq t.isLt (show cfg0.N = 64 from N_0)
  show (cfg0.win 6).cut (grid0.coords t) ((dats m 0 c).after 6 t) = _
  rw [after0_6]
  funext j
  refine (Acc.out_at m c t h1 j).trans ?_
  show pulls soft (X m c) (1024 * (t.val / 8) + (j 0).val) (j 1).val 8192
    = pulls soft (X m c) (win0_6.index t (0 : Fin 2) * 1024 + 1 * (j 0).val) (win0_6.index t (1 : Fin 2) * 3 + 1 * (j 1).val) 8192
  have e1 : win0_6.index t (0 : Fin 2) * 1024 + 1 * (j 0).val = 1024 * (t.val / 8) + (j 0).val := by rw [(idx6 t).1]; omega
  have e2 : win0_6.index t (1 : Fin 2) * 3 + 1 * (j 1).val = (j 1).val := by rw [(idx6 t).2]; omega
  rw [e1, e2]

/-- An index of the result is in point t's block iff each coordinate is in the block's range on its axis. -/
theorem mem_blk (t : Fin cfg0.N) (i : S8192x3.Idx) :
    i ∈ ((cfg0.win 6).blk t).view.set ↔ ∀ a : Fin 2, win0_6.index t a * S1024x3.size a ≤ (i a).val ∧ (i a).val < win0_6.index t a * S1024x3.size a + S1024x3.size a := by
  show i ∈ ((View.whole main_v12).slice (win0_6.rect t)).set ↔ _
  rw [View.set_slice_whole, Rect.mem_set_unit]
  exact Iff.rfl

/-- THE RESULT ARRAY after the run is the force array. -/
theorem final (c : Dev nD) : (dats m 0 c).arrAt 6 cfg0.N = force soft (X m c) :=
  (dats m 0 c).arrAt_eq_of_cover 6 (force soft (X m c)) (flushed_eq m c) fun i => by
    have hi0 : (i 0).val < 8192 := (i 0).isLt
    have hi1 : (i 1).val < 3 := (i 1).isLt
    have hN : cfg0.N = 64 := N_0
    let t : Fin cfg0.N := ⟨8 * ((i 0).val / 1024) + 7, by rw [hN]; omega⟩
    have ht : t.val = 8 * ((i 0).val / 1024) + 7 := rfl
    refine ⟨t, (flush0_6 t).mpr (by rw [ht]; omega), ?_⟩
    rw [mem_blk]
    intro a
    match a with
    | ⟨0, _⟩ =>
      show win0_6.index t (0 : Fin 2) * 1024 ≤ (i 0).val ∧ (i 0).val < win0_6.index t (0 : Fin 2) * 1024 + 1024
      rw [(idx6 t).1, ht]; omega
    | ⟨1, _⟩ =>
      show win0_6.index t (1 : Fin 2) * 3 ≤ (i 1).val ∧ (i 1).val < win0_6.index t (1 : Fin 2) * 3 + 3
      rw [(idx6 t).2]; omega

/-- The kernel's run, read: the result array at the force array of the launched positions, the positions unchanged. -/
theorem run : θ_run defs (onTc (τ := τ) (main (F := Ideal))) ⟨m, fun _ => 0, ρ⟩ fun r => ∀ c : Dev nD,
      r.2.mem ((c : Thread nD τ).loc main_v12) = force soft (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Result

end
-- ==== Proof.RefForce.lean ====
/-
  The reference computes the force array.

  Read at an index, the reference's operations are: the difference of two broadcasts of the positions (the separation),
  its square summed over the three axes and rooted (the norm), plus ε, cubed by two multiplications, spread back over
  the three axes, the separation DIVIDED by it, and the sum over the second point.  The cubed distance is never zero, so
  the quotient is the separation times the reciprocal: the pull.
-/
import proofs.«110747_j74440373174855_1_alg».proof.Proof.Gen.ReferenceIdeal.Read
import proofs.«110747_j74440373174855_1_alg».proof.Proof.PairForce

set_option maxRecDepth 16384

noncomputable section

namespace Cert.ReferenceIdeal.RefForce

open Cert.ReferenceIdeal Cert.ReferenceIdeal.Gen Cert.ReferenceIdeal.Read Idealize.ShloMosaic Idealize.ShloMosaic.ValueIdx PairForce

/-- An entry of the position array, by its coordinates' values. -/
theorem ent_idx (x : Pos.Idx → EReal) (p : Pos.Idx) : x p = ent x (p 0).val (p 1).val := by
  unfold ent
  rw [dif_pos ⟨(p 0).isLt, (p 1).isLt⟩]
  exact congrArg x (eq_ix2 p)

/-- The separation tensor at (i, j, k). -/
theorem v4_at (x : Pos.Idx → EReal) (q : S8192x8192x3.Idx) :
    val_main_v4 (F := Ideal) x q = sep x (q 0).val (q 1).val (q 2).val := by
  rw [val_main_v4_apply, val_main_v2_apply, val_main_v3_apply, val_main_v0_apply, val_main_v1_apply,
    ent_idx x (idx_main_v0 _), ent_idx x (idx_main_v1 _)]
  rfl

/-- The softened distance at (i, j). -/
theorem v7_at (x : Pos.Idx → EReal) (p : S8192x8192.Idx) :
    val_main_v7 (F := Ideal) x p
      = len soft (sep x (p 0).val (p 1).val 0) (sep x (p 0).val (p 1).val 1) (sep x (p 0).val (p 1).val 2) := by
  rw [val_main_v7_apply, val_main_v5_apply, val_main_call0_v1_apply, Fin.sum_univ_three,
    val_main_call0_v0_apply, val_main_call0_v0_apply, val_main_call0_v0_apply, v4_at, v4_at, v4_at,
    val_main_v6_apply, val_main_cst_apply, val_main_call0_cst_apply]
  simp only [Ideal.ofBits_def, Ideal.hostUnary_sqrt_def, Ideal.addf_def, Ideal.mulf_def, Ideal.ofBits_zero_f32, zero_add]
  rfl

/-- The quotient tensor at (i, j, k) is the pull of j on i along k. -/
theorem v12_at (x : Pos.Idx → EReal) (q : S8192x8192x3.Idx) :
    val_main_v12 (F := Ideal) x q = pull soft x (q 0).val (q 1).val (q 2).val := by
  rw [val_main_v12_apply, val_main_v11_apply, val_main_v10_apply, val_main_v9_apply, val_main_v8_apply, v7_at, v4_at,
    pull_eq_div soft_pos]
  rfl

/-- THE REFERENCE'S RESULT is the force array. -/
theorem result_eq (x : Pos.Idx → EReal) : val_main_v13 (F := Ideal) x = force soft x := by
  funext i
  rw [val_main_v13_apply, val_main_cst_0_apply]
  simp only [Ideal.ofBits_def, Ideal.ofBits_zero_f32, zero_add, v12_at]
  unfold force pulls
  exact Fin.sum_univ_eq_sum_range (fun j => pull soft x (i 0).val j (i 1).val) 8192

end Cert.ReferenceIdeal.RefForce

end
-- ==== Proof.lean ====
/-
  All-pairs inverse-cube forces: the Pallas kernel against its jnp reference, over the extended reals.

  For positions x : [8192, 3] both programs compute, for every point i and axis k,
      F(i, k) = Σ_j  (x(i,k) − x(j,k)) / d(i,j)³,     d(i,j) = √(Σ_k (x(i,k) − x(j,k))²) + ε,
  with the same ε (one float pattern, spelt by both).

  The reference forms the [8192, 8192, 3] tensor of separations, divides it by the cubed distances and sums over j.
  The kernel walks an 8 × 8 grid of 1024 × 1024 tiles of pairs; per tile it multiplies the separations by the
  RECIPROCAL 1/d³, sums each row of the tile, and accumulates the eight tiles of a row of the grid in a scratch block
  that it restarts from zero at the first tile and copies to the output block after the last.

  The two agree because (1) d³ is never zero — squares are non-negative, so is the root, and ε > 0 — so multiplying by
  1/d³ is dividing by d³, on the whole extended real line, whatever the positions are; and (2) a sum over 8192 points
  is the sum of its eight consecutive runs of 1024.  The precondition (finite inputs) is not needed for either.

  The modules: PairForce (the force array as a function, and the law (1)); TileValue (one grid step at an index);
  Pieces (what one run of the body leaves); Blocks (what the input blocks hold); Accumulate (the accumulator after
  every grid point, by induction: fact (2)); Result (the result array after the grid); RefForce (the reference).
  The three frames and the runs of both programs are the generated modules'.
-/
import proofs.«110747_j74440373174855_1_alg».proof.Defs
import proofs.«110747_j74440373174855_1_alg».proof.Proof.Gen.Kernel
import proofs.«110747_j74440373174855_1_alg».proof.Proof.Gen.Kernel.Skeleton
import proofs.«110747_j74440373174855_1_alg».proof.Proof.Gen.Kernel.Launch
import proofs.«110747_j74440373174855_1_alg».proof.Proof.Gen.Kernel.Points
import proofs.«110747_j74440373174855_1_alg».proof.Proof.Gen.Kernel.Frame
import proofs.«110747_j74440373174855_1_alg».proof.Proof.Gen.KernelIdeal
import proofs.«110747_j74440373174855_1_alg».proof.Proof.Gen.KernelIdeal.Skeleton
import proofs.«110747_j74440373174855_1_alg».proof.Proof.Gen.KernelIdeal.Launch
import proofs.«110747_j74440373174855_1_alg».proof.Proof.Gen.KernelIdeal.Points
import proofs.«110747_j74440373174855_1_alg».proof.Proof.Gen.KernelIdeal.Frame
import proofs.«110747_j74440373174855_1_alg».proof.Proof.Gen.ReferenceIdeal
import proofs.«110747_j74440373174855_1_alg».proof.Proof.Gen.Pre_finite_inputs
import proofs.«110747_j74440373174855_1_alg».proof.Proof.Gen.KernelIdeal.Value
import proofs.«110747_j74440373174855_1_alg».proof.Proof.Gen.ReferenceIdeal.Run
import proofs.«110747_j74440373174855_1_alg».proof.Proof.Gen.ReferenceIdeal.Read
import proofs.«110747_j74440373174855_1_alg».proof.Proof.Result
import proofs.«110747_j74440373174855_1_alg».proof.Proof.RefForce
import Idealize.ShloMosaic.Adequacy
import Idealize.ShloMosaic.Init

noncomputable section

namespace Cert.Proof

open Idealize.ShloMosaic Idealize.ShloMosaic.TcCoe Idealize.SL.Sem

/-- The kernel as printed terminates without a fault and leaves the positions as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- So does the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Reading the kernel over the extended reals rewrote none of its operations. -/
theorem preserves : Cert.preserves_Kernel_KernelIdeal := trivial

/-- Both programs end with the force array of the positions they were launched with: the kernel by its grid of
    accumulated row sums, the reference by one quotient tensor summed over the second point. -/
theorem algebraic : Cert.algebraic_KernelIdeal_ReferenceIdeal := by
  intro m ρ m' ρ' _ hagree
  refine ⟨fun c => PairForce.force PairForce.soft (m ((c.tc : Thread Cert.KernelIdeal.nD Cert.KernelIdeal.τ).loc Cert.KernelIdeal.main_arg0)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefForce.result_eq, hagree c]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
